-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000 : Shape := ⟨1, ![200000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000 : S_.BroadcastsInDim S200000 (![] : Fin 0 → Fin S200000.rank)
  reducesTo_S200000_S_d0 : S200000.ReducesTo [0] S_

variable [Facts]

def fn {F : FTy → Type} [FloatOps F] (main_arg0 : FVec F S200000x128 .f32) (main_arg1 : FVec F S200000 .f32) (main_arg2 : IVec S200000x128 32) (main_arg3 : IVec S200000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000 .f32 := Host.absf main_arg1
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_cst_2 : FVec F S_ .f32 := constant S_ .f32 0x00000000#32
  let main_v9 : FVec F S200000x128 .f32 := broadcastInDim S200000x128 ![] bcast_S_S200000x128 main_cst_2
  let main_v10 : IVec S200000x128 1 := cmpf .une main_arg0 main_v9
  let main_c_3 : IVec S_ 32 := constantI S_ 32 200000#32
  let main_v11 : IVec S200000x128 32 := broadcastInDim S200000x128 ![] bcast_S_S200000x128 main_c_3
  let main_v12 : IVec S200000x128 1 := cmpi .sge main_arg2 main_v11
  let main_v13 : IVec S200000x128 1 := ori main_v10 main_v12
  let main_c_4 : IVec S_ 1 := constantI S_ 1 1#1
  let main_v14 : IVec S_ 1 := (fun x v => Host.reduce IntOp.andi x v reducesTo_S200000x128_S_d0_1 h_S_) main_v13 main_c_4
  let main_v15 : IVec S_ 1 := andi main_v8 main_v14
  main_v15
-- ==== Kernel.lean ====
abbrev S200000x128 : Shape := ⟨2, ![200000, 128]⟩
abbrev S200000 : Shape := ⟨1, ![200000]⟩
abbrev S_ : Shape := ⟨0, ![]⟩
abbrev S1 : Shape := ⟨1, ![1]⟩
abbrev S200001 : Shape := ⟨1, ![200001]⟩
abbrev S200000x1 : Shape := ⟨2, ![200000, 1]⟩
abbrev S200000x128x1 : Shape := ⟨3, ![200000, 128, 1]⟩
abbrev S8000x128 : Shape := ⟨2, ![8000, 128]⟩
abbrev S8000x1 : Shape := ⟨2, ![8000, 1]⟩
abbrev S8000 : Shape := ⟨1, ![8000]⟩
abbrev S64 : Shape := ⟨1, ![64]⟩

abbrev nBuf : Space → Nat
  | .hbm => 25
  | .vmem => 6
  | .smem => 0
  | _ => 0

abbrev bufTy : (tb : Table) → Fin (tcTables nBuf tb) → BufTy
  | .hbm, ⟨0, _⟩ => ⟨S200000x128, .f32⟩
  | .hbm, ⟨1, _⟩ => ⟨S200000, .f32⟩
  | .hbm, ⟨2, _⟩ => ⟨S200000x128, .i32⟩
  | .hbm, ⟨3, _⟩ => ⟨S200000, .i32⟩
  | .hbm, ⟨4, _⟩ => ⟨S_, .f32⟩
  | .hbm, ⟨5, _⟩ => ⟨S1, .f32⟩
  | .hbm, ⟨6, _⟩ => ⟨S200001, .f32⟩
  | .hbm, ⟨7, _⟩ => ⟨S200000x1, .f32⟩
  | .hbm, ⟨8, _⟩ => ⟨S_, .i32⟩
  | .hbm, ⟨9, _⟩ => ⟨S200000x128, .i32⟩
  | .hbm, ⟨10, _⟩ => ⟨S200000x128, .i1⟩
  | .hbm, ⟨11, _⟩ => ⟨S_, .i32⟩
  | .hbm, ⟨12, _⟩ => ⟨S200000x128, .i32⟩
  | .hbm, ⟨13, _⟩ => ⟨S200000x128, .i32⟩
  | .hbm, ⟨14, _⟩ => ⟨S200000x128, .i32⟩
  | .hbm, ⟨15, _⟩ => ⟨S200000x128x1, .i32⟩
  | .hbm, ⟨16, _⟩ => ⟨S200000x128, .f32⟩
  | .hbm, ⟨17, _⟩ => ⟨S200000x128, .f32⟩
  | .hbm, ⟨18, _⟩ => ⟨S200000x128, .f32⟩
  | .hbm, ⟨19, _⟩ => ⟨S200000x1, .f32⟩
  | .hbm, ⟨20, _⟩ => ⟨S200000, .f32⟩
  | .hbm, ⟨21, _⟩ => ⟨S_, .f32⟩
  | .hbm, ⟨22, _⟩ => ⟨S64, .f32⟩
  | .hbm, ⟨23, _⟩ => ⟨S200000x1, .i32⟩
  | .hbm, ⟨24, _⟩ => ⟨S64, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x1, .f32⟩
  | .local _ .vmem, ⟨5, _⟩ => ⟨S8000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1 : S_.BroadcastsInDim S1 (![] : Fin 0 → Fin S1.rank)
  concatenates_S200000_S1_S200001_d0 : Shape.Concatenates [S200000, S1] S200001 0
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S200000x128_S200000x128x1_0_1 : S200000x128.BroadcastsInDim S200000x128x1 (![0, 1] : Fin 2 → Fin S200000x128x1.rank)
  bcast_S200000x1_S200000x128_0_1 : S200000x1.BroadcastsInDim S200000x128 (![0, 1] : Fin 2 → Fin S200000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S200000x1_S200000 : S200000x1.ShapeCasts S200000
  bcast_S_S64 : S_.BroadcastsInDim S64 (![] : Fin 0 → Fin S64.rank)
  gather_S200001_S200000x128x1_S200000x128_n_0_n_n_0_2_1_wf : GatherDims.WF S200001 S200000x128x1 S200000x128 [] [0] [] [0] [] 2 ![1]
  scatter_S64_S200000x1_S200000_n_0_0_1_wf : ScatterDims.WF S64 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S200000x128.size a
  hwx0_1 : ∀ i : grid0.Coords, EltTy.bits .f32 = 32 ∨ (Rect.block (s := S200000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S200000x1.size a
  hwx0_2 : ∀ i : grid0.Coords, EltTy.bits .f32 = 32 ∨ (Rect.block (s := S200000x1) S8000x1.size (cc0_transform_2 i) (hinb0_2 i)).WholeWords (EltTy.packing .f32)

variable [Facts₀]

def gather_S200001_S200000x128x1_S200000x128_n_0_n_n_0_2_1 : GatherDims S200001 S200000x128x1 S200000x128 where
  offsetDims := []
  collapsedSliceDims := [0]
  operandBatchingDims := []
  startIndicesBatchingDims := []
  startIndexMap := [0]
  indexVectorDim := 2
  sliceSizes := ![1]
  wf := gather_S200001_S200000x128x1_S200000x128_n_0_n_n_0_2_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x128 : Shape := ⟨2, ![200000, 128]⟩
abbrev S200000 : Shape := ⟨1, ![200000]⟩
abbrev S_ : Shape := ⟨0, ![]⟩
abbrev S1 : Shape := ⟨1, ![1]⟩
abbrev S200001 : Shape := ⟨1, ![200001]⟩
abbrev S200000x1 : Shape := ⟨2, ![200000, 1]⟩
abbrev S200000x128x1 : Shape := ⟨3, ![200000, 128, 1]⟩
abbrev S64 : Shape := ⟨1, ![64]⟩

abbrev nBuf : Space → Nat
  | .hbm => 72
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000, .f32⟩
  | .hbm, ⟨2, _⟩ => ⟨S200000x128, .i32⟩
  | .hbm, ⟨3, _⟩ => ⟨S200000, .i32⟩
  | .hbm, ⟨4, _⟩ => ⟨S_, .i32⟩
  | .hbm, ⟨5, _⟩ => ⟨S200000x128, .i32⟩
  | .hbm, ⟨6, _⟩ => ⟨S200000x128, .i1⟩
  | .hbm, ⟨7, _⟩ => ⟨S_, .f32⟩
  | .hbm, ⟨8, _⟩ => ⟨S1, .f32⟩
  | .hbm, ⟨9, _⟩ => ⟨S200001, .f32⟩
  | .hbm, ⟨10, _⟩ => ⟨S200000x1, .f32⟩
  | .hbm, ⟨11, _⟩ => ⟨S_, .i32⟩
  | .hbm, ⟨12, _⟩ => ⟨S200000x128, .i32⟩
  | .hbm, ⟨13, _⟩ => ⟨S200000x128, .i1⟩
  | .hbm, ⟨14, _⟩ => ⟨S_, .i32⟩
  | .hbm, ⟨15, _⟩ => ⟨S200000x128, .i32⟩
  | .hbm, ⟨16, _⟩ => ⟨S200000x128, .i32⟩
  | .hbm, ⟨17, _⟩ => ⟨S200000x128, .i32⟩
  | .hbm, ⟨18, _⟩ => ⟨S200000x128x1, .i32⟩
  | .hbm, ⟨19, _⟩ => ⟨S200000x128, .f32⟩
  | .hbm, ⟨20, _⟩ => ⟨S200000x128, .f32⟩
  | .hbm, ⟨21, _⟩ => ⟨S200000x128, .f32⟩
  | .hbm, ⟨22, _⟩ => ⟨S_, .f32⟩
  | .hbm, ⟨23, _⟩ => ⟨S200000x128, .f32⟩
  | .hbm, ⟨24, _⟩ => ⟨S200000x128, .f32⟩
  | .hbm, ⟨25, _⟩ => ⟨S_, .f32⟩
  | .hbm, ⟨26, _⟩ => ⟨S_, .f32⟩
  | .hbm, ⟨27, _⟩ => ⟨S200000x128, .f32⟩
  | .hbm, ⟨28, _⟩ => ⟨S200000x128, .f32⟩
  | .hbm, ⟨29, _⟩ => ⟨S200000x128, .f32⟩
  | .hbm, ⟨30, _⟩ => ⟨S_, .f32⟩
  | .hbm, ⟨31, _⟩ => ⟨S200000, .f32⟩
  | .hbm, ⟨32, _⟩ => ⟨S_, .f32⟩
  | .hbm, ⟨33, _⟩ => ⟨S200000x128, .f32⟩
  | .hbm, ⟨34, _⟩ => ⟨S200000x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S200000x128, .f32⟩
  | .hbm, ⟨39, _⟩ => ⟨S200000x128, .f32⟩
  | .hbm, ⟨40, _⟩ => ⟨S_, .f32⟩
  | .hbm, ⟨41, _⟩ => ⟨S200000x128, .f32⟩
  | .hbm, ⟨42, _⟩ => ⟨S200000x128, .f32⟩
  | .hbm, ⟨43, _⟩ => ⟨S_, .f32⟩
  | .hbm, ⟨44, _⟩ => ⟨S200000x128, .f32⟩
  | .hbm, ⟨45, _⟩ => ⟨S200000x128, .i1⟩
  | .hbm, ⟨46, _⟩ => ⟨S200000x128, .f32⟩
  | .hbm, ⟨47, _⟩ => ⟨S_, .f32⟩
  | .hbm, ⟨48, _⟩ => ⟨S200000x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S200000x128, .f32⟩
  | .hbm, ⟨53, _⟩ => ⟨S_, .f32⟩
  | .hbm, ⟨54, _⟩ => ⟨S200000x128, .f32⟩
  | .hbm, ⟨55, _⟩ => ⟨S200000x128, .f32⟩
  | .hbm, ⟨56, _⟩ => ⟨S200000x128, .f32⟩
  | .hbm, ⟨57, _⟩ => ⟨S_, .f32⟩
  | .hbm, ⟨58, _⟩ => ⟨S_, .f32⟩
  | .hbm, ⟨59, _⟩ => ⟨S200000x128, .f32⟩
  | .hbm, ⟨60, _⟩ => ⟨S200000x128, .f32⟩
  | .hbm, ⟨61, _⟩ => ⟨S200000x128, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S_, .f32⟩
  | .hbm, ⟨66, _⟩ => ⟨S200000, .f32⟩
  | .hbm, ⟨67, _⟩ => ⟨S200000, .f32⟩
  | .hbm, ⟨68, _⟩ => ⟨S_, .f32⟩
  | .hbm, ⟨69, _⟩ => ⟨S64, .f32⟩
  | .hbm, ⟨70, _⟩ => ⟨S200000x1, .i32⟩
  | .hbm, ⟨71, _⟩ => ⟨S64, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_v26 : Ref sig .tc := ⟨.hbm, 49, rfl⟩
abbrev main_cst_10 : Ref sig .tc := ⟨.hbm, 50, rfl⟩
abbrev main_v27 : Ref sig .tc := ⟨.hbm, 51, rfl⟩
abbrev main_v28 : Ref sig .tc := ⟨.hbm, 52, rfl⟩
abbrev main_cst_11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_12 : Ref sig .tc := ⟨.hbm, 57, rfl⟩
abbrev main_call2_v0 : Ref sig .tc := ⟨.hbm, 58, rfl⟩
abbrev main_call2_v1 : Ref sig .tc := ⟨.hbm, 59, rfl⟩
abbrev main_v32 : Ref sig .tc := ⟨.hbm, 60, rfl⟩
abbrev main_v33 : Ref sig .tc := ⟨.hbm, 61, rfl⟩
abbrev main_cst_13 : Ref sig .tc := ⟨.hbm, 62, rfl⟩
abbrev main_v34 : Ref sig .tc := ⟨.hbm, 63, rfl⟩
abbrev main_v35 : Ref sig .tc := ⟨.hbm, 64, rfl⟩
abbrev main_cst_14 : Ref sig .tc := ⟨.hbm, 65, rfl⟩
abbrev main_v36 : Ref sig .tc := ⟨.hbm, 66, rfl⟩
abbrev main_v37 : Ref sig .tc := ⟨.hbm, 67, rfl⟩
abbrev main_cst_15 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  bcast_S_S200000x128 : S_.BroadcastsInDim S200000x128 (![] : Fin 0 → Fin S200000x128.rank)
  bcast_S_S1 : S_.BroadcastsInDim S1 (![] : Fin 0 → Fin S1.rank)
  concatenates_S200000_S1_S200001_d0 : Shape.Concatenates [S200000, S1] S200001 0
  bcast_S200000_S200000x1_0 : S200000.BroadcastsInDim S200000x1 (![0] : Fin 1 → Fin S200000x1.rank)
  bcast_S200000x128_S200000x128x1_0_1 : S200000x128.BroadcastsInDim S200000x128x1 (![0, 1] : Fin 2 → Fin S200000x128x1.rank)
  bcast_S200000x1_S200000x128_0_1 : S200000x1.BroadcastsInDim S200000x128 (![0, 1] : Fin 2 → Fin S200000x128.rank)
  reducesTo_S200000x128_S200000_d1 : S200000x128.ReducesTo [1] S200000
  h_S_ : 0 < S_.numel
  bcast_S_S200000 : S_.BroadcastsInDim S200000 (![] : Fin 0 → Fin S200000.rank)
  bcast_S_S64 : S_.BroadcastsInDim S64 (![] : Fin 0 → Fin S64.rank)
  gather_S200001_S200000x128x1_S200000x128_n_0_n_n_0_2_1_wf : GatherDims.WF S200001 S200000x128x1 S200000x128 [] [0] [] [0] [] 2 ![1]
  scatter_S64_S200000x1_S200000_n_0_0_1_wf : ScatterDims.WF S64 S200000x1 S200000 [] [0] [0] 1

variable [Facts₀]

def gather_S200001_S200000x128x1_S200000x128_n_0_n_n_0_2_1 : GatherDims S200001 S200000x128x1 S200000x128 where
  offsetDims := []
  collapsedSliceDims := [0]
  operandBatchingDims := []
  startIndicesBatchingDims := []
  startIndexMap := [0]
  indexVectorDim := 2
  sliceSizes := ![1]
  wf := gather_S200001_S200000x128x1_S200000x128_n_0_n_n_0_2_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf

class Facts : Prop extends Facts₀ where

variable [Facts]
-- ==== Proof.CoulombAlgebra.lean ====
/-
  The pairwise Coulomb term on the extended reals, with no program in sight.

  For one atom, over its neighbour slots `k`, write `Q k` for the charge product `q_i · q_j`, `d k` for the
  distance, `f k` for the cutoff envelope and `v k` for the bit "slot `k` holds a real neighbour". One side forms the
  guarded quotient `Q / d` where `Q ≠ 0` (else `0`) and sums `(Q / d) · (1 − f)`; the other multiplies `Q` by the
  masked reciprocal (`1 / d` on a real neighbour, else `0`), and subtracts the envelope-weighted sum from the plain
  sum. The two agree when every `Q`, `d`, `f` is a real number, `d ≠ 0` on real neighbours, and `Q = 0` on padding:
  then each slot's term is one real number `a` on both sides, and `∑ a (1 − f) = ∑ a − ∑ f a` is distributivity and
  linearity of a finite real sum. Finiteness is what the law needs: with an infinite term the right side is `∞ − ∞`.

  The envelope `exp (1 − 1 / z)` is a real number at EVERY extended real `z`: `1 / z` is never `−∞` (it is `+∞` at
  `z = 0`, `0` at the infinities), so `1 − 1 / z` is never `+∞`, and `exp` is finite below `+∞`.
-/
import Idealize.ShloMosaic.PureOps.Ideal
import Idealize.ShloMosaic.PureOps.Ideal.Laws
import Idealize.ShloMosaic.PureOps.IdealRules
import Idealize.ShloMosaic.Lib.ValueIdx

noncomputable section

open scoped BigOperators
open Idealize.ShloMosaic Idealize.ShloMosaic.ValueIdx

namespace Cert.Coulomb

/-- The f32 word of `1.0` denotes the real number one. -/
theorem one_f32 : Ideal.ofBits .f32 0x3F800000#32 = (1 : EReal) := IdealRules.sign_bit.ideal_onePat .f32

/-- The coercion of a finite real sum is the sum of the coercions. -/
theorem coe_sum {n : ℕ} (g : Fin n → ℝ) : ((∑ k, g k : ℝ) : EReal) = ∑ k, (g k : EReal) := by
  have h : ∀ s : Finset (Fin n), ((∑ k ∈ s, g k : ℝ) : EReal) = ∑ k ∈ s, (g k : EReal) := by
    intro s
    induction s using Finset.induction_on with
    | empty => simp
    | insert a s ha ih => rw [Finset.sum_insert ha, Finset.sum_insert ha, EReal.coe_add, ih]
  exact h _

/-- A quotient of reals by a nonzero real is the real quotient. -/
theorem div_real (x : ℝ) {y : ℝ} (hy : y ≠ 0) : Ideal.div (x : EReal) (y : EReal) = ((x / y : ℝ) : EReal) := by
  rw [Ideal.div_coe hy, ← EReal.coe_mul]
  congr 1
  ring

/-- `1 / z` is `+∞` or a real number, at every extended real `z`: never `−∞`. -/
theorem one_div_cases (z : EReal) : Ideal.div 1 z = ⊤ ∨ ∃ r : ℝ, Ideal.div 1 z = (r : EReal) := by
  unfold Ideal.div
  by_cases h0 : z = 0
  · left; rw [if_pos h0, if_pos (by norm_num)]
  · right
    rw [if_neg h0, one_mul]
    induction z using EReal.rec with
    | bot => exact ⟨0, by rw [EReal.inv_bot, EReal.coe_zero]⟩
    | top => exact ⟨0, by rw [EReal.inv_top, EReal.coe_zero]⟩
    | coe r => exact ⟨r⁻¹, (EReal.coe_inv r).symm⟩

/-- The cutoff envelope `exp (1 − 1 / z)` is a real number at every extended real `z`. -/
theorem envelope_real (z : EReal) : ∃ r : ℝ, Ideal.exp (1 - Ideal.div 1 z) = (r : EReal) := by
  rcases one_div_cases z with h | ⟨r, h⟩
  · refine ⟨0, ?_⟩
    rw [h, EReal.sub_top, Ideal.exp_bot, EReal.coe_zero]
  · refine ⟨Real.exp (1 - r), ?_⟩
    rw [h, ← EReal.coe_one, ← EReal.coe_sub, Ideal.exp_coe]

/-- The cutoff envelope of a distance `d`: `exp (1 − 1 / (1 − x²))` with `x` the ratio `d / r_c` clipped into
    `[0, 1 − 10⁻⁶]`, taken where `d < r_c`, else `0`. The float words are kept as words: the same words stand on both
    sides of the claim, and only `1.0` and `0.0` are ever read as numbers. -/
def envelope (d : EReal) : EReal :=
  Scalar.select (Ideal.cmp .olt d (Ideal.ofBits .f32 0x40933333#32))
    (Ideal.exp (Ideal.ofBits .f32 0x3F800000#32 - Ideal.div (Ideal.ofBits .f32 0x3F800000#32)
      (Ideal.ofBits .f32 0x3F800000#32 -
        min (Ideal.ofBits .f32 0x3F7FFFEF#32) (max (Ideal.ofBits .f32 0x00000000#32) (Ideal.div d (Ideal.ofBits .f32 0x40933333#32)))
          * min (Ideal.ofBits .f32 0x3F7FFFEF#32) (max (Ideal.ofBits .f32 0x00000000#32) (Ideal.div d (Ideal.ofBits .f32 0x40933333#32))))))
    (Ideal.ofBits .f32 0x00000000#32)

/-- The envelope is a real number at every distance, finite or not. -/
theorem envelope_is_real (d : EReal) : ∃ r : ℝ, envelope d = (r : EReal) := by
  unfold envelope
  rw [one_f32, Ideal.ofBits_zero_f32]
  rcases BitVec.eq_zero_or_eq_one (Ideal.cmp .olt d (Ideal.ofBits .f32 0x40933333#32)) with h | h
  · rw [h, select_zero]; exact ⟨0, EReal.coe_zero.symm⟩
  · rw [h, select_one]; exact envelope_real _

/-- One neighbour slot's contribution where the mask is dropped: the guarded quotient `Q / d` (taken where `Q ≠ 0`)
    times `1 − envelope d`. -/
def slotTerm (Q d : EReal) : EReal :=
  Scalar.select (Ideal.cmp .one Q (Ideal.ofBits .f32 0x00000000#32)) (Ideal.div Q d) (Ideal.ofBits .f32 0x00000000#32)
    * (Ideal.ofBits .f32 0x3F800000#32 - envelope d)

/-- One atom's energy from the distance array `D` and the charge-product array `Qa`: the conversion factor times the
    sum of the atom's 128 slot terms. -/
def rowEnergy (D Qa : (⟨2, ![200000, 128]⟩ : Shape).Idx → EReal) (r : Fin 200000) : EReal :=
  Ideal.ofBits .f32 0x40E664F3#32 * ∑ k : Fin 128, slotTerm (Qa (ix2 r k)) (D (ix2 r k))

/-- The energy column `[200000, 1]`: entry `(r, ·)` is atom `r`'s energy. -/
def energyColumn (D Qa : (⟨2, ![200000, 128]⟩ : Shape).Idx → EReal) : (⟨2, ![200000, 1]⟩ : Shape).Idx → EReal :=
  fun y => rowEnergy D Qa ⟨(y 0).val, (y 0).isLt⟩

/-- One slot's term is ONE real number on both sides: the guarded quotient `Q / d` (taken where `Q ≠ 0`) and the
    product of `Q` with the masked reciprocal, when `d ≠ 0` on a real neighbour and `Q = 0` on padding. -/
theorem slot_eq (Q d : ℝ) (v : BitVec 1) (hv : v = 1#1 → d ≠ 0) (hq : ¬ v = 1#1 → Q = 0) :
    ∃ a : ℝ, Scalar.select (Ideal.cmp .one (Q : EReal) 0) (Ideal.div (Q : EReal) (d : EReal)) 0 = (a : EReal)
      ∧ (Q : EReal) * Scalar.select v (Ideal.div 1 (d : EReal)) 0 = (a : EReal) := by
  by_cases hQ : Q = 0
  · subst hQ
    refine ⟨0, ?_, ?_⟩
    · have : Ideal.cmp .one ((0 : ℝ) : EReal) 0 = 0#1 := by simp [Ideal.cmp]
      rw [this, select_zero, EReal.coe_zero]
    · rw [EReal.coe_zero, zero_mul]
  · have hv1 : v = 1#1 := by_contra fun h => hQ (hq h)
    have hd := hv hv1
    refine ⟨Q / d, ?_, ?_⟩
    · have : Ideal.cmp .one (Q : EReal) 0 = 1#1 := by
        have hne : (Q : EReal) ≠ 0 := by exact_mod_cast hQ
        simp [Ideal.cmp, hne]
      rw [this, select_one, div_real Q hd]
    · rw [hv1, select_one, ← EReal.coe_one, div_real 1 hd, ← EReal.coe_mul]
      congr 1
      ring

/-- THE ROW LAW. Over one atom's slots: `c · ∑ (guarded Q / d) · (1 − f)` is `c · ((0 + ∑ Q · masked 1/d) −
    (0 + ∑ f · (Q · masked 1/d)))`, when every `Q`, `d`, `f` is real, `d ≠ 0` on real neighbours and `Q = 0` on
    padding. (`0 + ·` is the initial value of the second side's sums.) -/
theorem row_eq {n : ℕ} (c : EReal) (Q d f : Fin n → EReal) (v : Fin n → BitVec 1)
    (hQ : ∀ k, ∃ q : ℝ, Q k = (q : EReal)) (hd : ∀ k, ∃ x : ℝ, d k = (x : EReal)) (hf : ∀ k, ∃ r : ℝ, f k = (r : EReal))
    (hv : ∀ k, v k = 1#1 → d k ≠ 0) (hq : ∀ k, ¬ v k = 1#1 → Q k = 0) :
    c * ∑ k, Scalar.select (Ideal.cmp .one (Q k) 0) (Ideal.div (Q k) (d k)) 0 * (1 - f k)
      = c * ((0 + ∑ k, Q k * Scalar.select (v k) (Ideal.div 1 (d k)) 0)
          - (0 + ∑ k, f k * (Q k * Scalar.select (v k) (Ideal.div 1 (d k)) 0))) := by
  choose q hq' using hQ
  choose x hx using hd
  choose r hr using hf
  have hslot : ∀ k, ∃ a : ℝ, Scalar.select (Ideal.cmp .one (Q k) 0) (Ideal.div (Q k) (d k)) 0 = (a : EReal)
      ∧ Q k * Scalar.select (v k) (Ideal.div 1 (d k)) 0 = (a : EReal) := by
    intro k
    rw [hq' k, hx k]
    refine slot_eq (q k) (x k) (v k) (fun h => ?_) (fun h => ?_)
    · have := hv k h; rw [hx k] at this; exact_mod_cast this
    · have := hq k h; rw [hq' k] at this; exact_mod_cast this
  choose a ha1 ha2 using hslot
  congr 1
  have e1 : ∀ k, Scalar.select (Ideal.cmp .one (Q k) 0) (Ideal.div (Q k) (d k)) 0 * (1 - f k)
      = ((a k * (1 - r k) : ℝ) : EReal) := by
    intro k; rw [ha1 k, hr k, ← EReal.coe_one, ← EReal.coe_sub, ← EReal.coe_mul]
  have e2 : ∀ k, f k * (Q k * Scalar.select (v k) (Ideal.div 1 (d k)) 0) = ((r k * a k : ℝ) : EReal) := by
    intro k; rw [ha2 k, hr k, ← EReal.coe_mul]
  simp only [e1, e2]
  simp only [ha2, zero_add, ← coe_sum, ← EReal.coe_sub]
  congr 1
  rw [← Finset.sum_sub_distrib]
  exact Finset.sum_congr rfl fun k _ => by ring

end Cert.Coulomb

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.CoulombBody.lean ====
/-
  What the kernel body stores, read at one entry. The body's one store writes a column `[8000, 1]` of per-atom energies:
  entry `(p, ·)` is the conversion factor times the sum, over the 128 neighbour slots `k` of row `p`, of the guarded
  quotient `Q / d` (taken where `Q ≠ 0`) times `1 − envelope d`, with `d` and `Q` the two loaded blocks at `(p, k)`.
  The lane reduction over axis 1 is a `Fin 128`-indexed sum; the cast `[8000] → [8000, 1]` keeps the row.
-/
import proofs.«110693_j54597624267346_2_alg».proof.Proof.Gen.KernelIdeal.Skeleton
import proofs.«110693_j54597624267346_2_alg».proof.Proof.CoulombAlgebra
import proofs.«110693_j54597624267346_2_alg».proof.Proof.LibKeepdimsLayout
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Coulomb

open Cert.KernelIdeal Cert.KernelIdeal.Gen

/-- The index the lane reduction inserts at row `p`, lane `k`, is `(p, k)`. -/
theorem lift_row (p : Fin 8000) (k : Fin 128) : reduces_S8000x128_S8000.lift (ix1 p) k = ix2 p k :=
  funext fun a => Fin.ext (by match a with | ⟨0, _⟩ => rfl | ⟨1, _⟩ => rfl)

/-- THE PAYLOAD AT AN ENTRY: row `p` of the stored column is the factor times the sum of the row's slot terms. -/
theorem pay_apply (x0 x1 : Vec Ideal S8000x128 .f32) (p : Fin 8000) (u : Fin 1) :
    k0_pay1 x0 x1 (ix2 p u)
      = Ideal.ofBits .f32 0x40E664F3#32 * ∑ k : Fin 128, slotTerm (x1 (ix2 p k)) (x0 (ix2 p k)) := by
  unfold k0_pay1
  dsimp only
  rw [shapeCast_self]
  show Ideal.ofBits .f32 0x40E664F3#32 * (shapeCast S8000x1 _ shapeCasts_S8000_S8000x1 (ix2 p u)) = _
  refine congrArg (Ideal.ofBits .f32 0x40E664F3#32 * ·) ?_
  refine (Cert.LayoutKeepdims.shapeCast_a_a1_apply _ _ p u).trans ?_
  refine (Ideal.multiReduction_add_single _ 0x00000000#32 reduces_S8000x128_S8000 _ _ (ix1 p)).trans ?_
  refine Finset.sum_congr rfl (fun (k : Fin 128) _ => ?_)
  refine (congrArg (mulf _ _) (lift_row p k)).trans ?_
  rfl

end Cert.Coulomb

end
-- ==== Proof.CoulombKernel.lean ====
/-
  The kernel's region, read as one array. The region's output is a column `[200000, 1]` of per-atom energies; grid point
  `t` of the 25 writes rows `8000 t … 8000 t + 7999`, each row from the same rows of the two input arrays (both input
  windows move with the output's, block for block). So what point `t` writes back is block `t` of ONE function of the
  two input arrays as the region finds them — row `r` is the factor times the sum of row `r`'s 128 slot terms — and the 25
  blocks tile the column, so the array after the run is that function.
-/
import proofs.«110693_j54597624267346_2_alg».proof.Proof.Gen.KernelIdeal.Frame
import proofs.«110693_j54597624267346_2_alg».proof.Proof.CoulombBody
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Coulomb

open Cert.KernelIdeal Cert.KernelIdeal.Gen

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 25 grid points: both input windows sit at the output window's row block and at
    column block 0; the output's row block is at most 24. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 24 :=
  (by decide +kernel : ∀ t : Fin grid0.N, _)

/-- Every row block is some grid point's. -/
theorem idx_onto : ∀ q : Fin 25, ∃ t : Fin cfg0.N, win0_2.index t = ![q.val, 0] :=
  (by decide +kernel : ∀ q : Fin 25, ∃ t : Fin grid0.N, win0_2.index t = ![q.val, 0])

/-- The distance block at point `t`, entry `(p, k)`, is the distance array at row `8000 · (block) + p`, column `k`. -/
theorem dist_block (c : Dev nD) (t : Fin cfg0.N) (p : Fin 8000) (k : Fin 128) (i : S200000x128.Idx)
    (hi0 : (i 0).val = win0_2.index t (0 : Fin 2) * 8000 + p.val) (hi1 : (i 1).val = k.val) :
    (iblk m c 0 t : Vec Ideal S8000x128 .f32) (ix2 p k) = V m c main_arg0 i := by
  obtain ⟨e0, e1, e2, e3, e4, e5⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 8000 + 1 * p.val = (i 0).val; omega
  | ⟨1, _⟩ => show win0_0.index t (1 : Fin 2) * 128 + 1 * k.val = (i 1).val; omega

/-- The charge-product block at point `t`, entry `(p, k)`, likewise. -/
theorem charge_block (c : Dev nD) (t : Fin cfg0.N) (p : Fin 8000) (k : Fin 128) (i : S200000x128.Idx)
    (hi0 : (i 0).val = win0_2.index t (0 : Fin 2) * 8000 + p.val) (hi1 : (i 1).val = k.val) :
    (iblk m c 1 t : Vec Ideal S8000x128 .f32) (ix2 p k) = V m c main_v11 i := by
  obtain ⟨e0, e1, e2, e3, e4, e5⟩ := idx_facts t
  unfold iblk
  rw [View.read_apply]
  show V m c main_v11 _ = V m c main_v11 _
  refine congrArg (V m c main_v11) ?_
  funext a
  apply Fin.ext
  match a with
  | ⟨0, _⟩ => show win0_1.index t (0 : Fin 2) * 8000 + 1 * p.val = (i 0).val; omega
  | ⟨1, _⟩ => show win0_1.index t (1 : Fin 2) * 128 + 1 * k.val = (i 1).val; omega

/-- WHAT POINT `t` WRITES BACK is block `t` of the energy column of the two input arrays as the region finds them. -/
theorem flushed_eq (c : Dev nD) (t : Fin cfg0.N) :
    (dats m 0 c).flushed 2 t
      = ((cfg0.win 2).blk t).view.read (Elt Ideal) (energyColumn (V m c main_arg0) (V m c main_v11)) := by
  show (cfg0.win 2).cut (grid0.coords t) ((dats m 0 c).after 2 t) = _
  rw [after0_2]
  unfold out0_2
  rw [View.canon_unit_zero offsets_zero]
  simp only [View.ld_unit_zero (S := S8000x128) offsets_zero]
  show (k0_pay1 (iblk m c 0 t) (iblk m c 1 t) : S8000x1.Idx → EReal)
    = fun j : S8000x1.Idx => energyColumn (V m c main_arg0) (V m c main_v11) (((cfg0.win 2).blk t).view.emb j)
  funext j
  obtain ⟨p, u, rfl⟩ : ∃ (p : Fin 8000) (u : Fin 1), j = ix2 p u := ⟨j 0, j 1, eq_ix2 j⟩
  refine (pay_apply (iblk m c 0 t) (iblk m c 1 t) p u).trans ?_
  unfold energyColumn rowEnergy
  refine congrArg (Ideal.ofBits .f32 0x40E664F3#32 * ·) (Finset.sum_congr rfl fun k _ => ?_)
  have hrow : ((((cfg0.win 2).blk t).view.emb (ix2 p u)) 0).val = win0_2.index t (0 : Fin 2) * 8000 + p.val := by
    show win0_2.index t (0 : Fin 2) * 8000 + 1 * p.val = _
    omega
  refine congrArg₂ slotTerm (charge_block m c t p k _ ?_ ?_) (dist_block m c t p k _ ?_ ?_)
  · exact hrow
  · rfl
  · exact hrow
  · rfl

/-- An index of the column is in point `t`'s block iff each coordinate is in the block's range on its axis. -/
theorem mem_blk (t : Fin cfg0.N) (i : S200000x1.Idx) :
    i ∈ ((cfg0.win 2).blk t).view.set
      ↔ ∀ a : Fin 2, win0_2.index t a * S8000x1.size a ≤ (i a).val ∧ (i a).val < win0_2.index t a * S8000x1.size a + S8000x1.size a := by
  show i ∈ ((View.whole main_v12).slice (win0_2.rect t)).set ↔ _
  rw [View.set_slice_whole, Rect.mem_set_unit]
  exact Iff.rfl

/-- THE ARRAY AFTER THE REGION: the energy column of the two input arrays. Row `r` lies in the block of the point whose
    row block is `r / 8000`. -/
theorem column_final (c : Dev nD) :
    (dats m 0 c).arrAt 2 cfg0.N = energyColumn (V m c main_arg0) (V m c main_v11) :=
  (dats m 0 c).arrAt_eq_of_cover 2 (energyColumn (V m c main_arg0) (V m c main_v11)) (fun t _ => flushed_eq m c t) (fun i => by
    have hi0 : (i 0).val < 200000 := (i 0).isLt
    have hi1 : (i 1).val < 1 := (i 1).isLt
    obtain ⟨t, ht⟩ := idx_onto ⟨(i 0).val / 8000, by omega⟩
    have q0 : win0_2.index t (0 : Fin 2) = (i 0).val / 8000 := congrFun ht 0
    have q1 : win0_2.index t (1 : Fin 2) = 0 := congrFun ht 1
    refine ⟨t, flush0_2 t, ?_⟩
    rw [mem_blk]
    intro a
    match a with
    | ⟨0, _⟩ =>
      show win0_2.index t (0 : Fin 2) * 8000 ≤ (i 0).val ∧ (i 0).val < win0_2.index t (0 : Fin 2) * 8000 + 8000
      omega
    | ⟨1, _⟩ =>
      show win0_2.index t (1 : Fin 2) * 1 ≤ (i 1).val ∧ (i 1).val < win0_2.index t (1 : Fin 2) * 1 + 1
      omega)

end Cert.Coulomb

end
-- ==== Proof.CoulombRun.lean ====
/-
  The kernel program's run, read as a value. Before the region the host forms the charge-product array; after it the
  host flattens the region's energy column `[200000, 1]` to a vector and scatter-adds it into 64 molecule sums. So the
  program's result is that scatter-add of the flattened energy column of the distances and the charge products.
-/
import proofs.«110693_j54597624267346_2_alg».proof.Proof.CoulombKernel
import proofs.«110693_j54597624267346_2_alg».proof.Proof.Gen.ReferenceIdeal.Read
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.StableHlo
open Idealize.ShloMosaic.Pipeline (Dat)

namespace Cert.Coulomb

open Cert.KernelIdeal Cert.KernelIdeal.Gen

variable (m : (ℓ : Loc nD τ sig) → Buf (Elt Ideal) ℓ) (ρ : Dev nD → PrngReg)

/-- The host tail both programs end with: flattened per-atom energies scatter-added into the 64 molecule sums. -/
def moleculeSums (idx : IVec S200000 32) (e : FVec Ideal S200000 .f32) : FVec Ideal S64 .f32 :=
  Host.scatterAdd scatter_S64_S200000x1_S200000_n_0_0_1
    (broadcastInDim S64 ![] bcast_S_S64 (constant (F := Ideal) S_ .f32 0x00000000#32))
    (broadcastInDim S200000x1 ![0] bcast_S200000_S200000x1_0 idx) e

/-- The charge-product array as the region finds it is the reference's charge-product stage of the same arguments. -/
theorem charge_entry (c : Dev nD) :
    (V m c main_v11 : S200000x128.Idx → EReal)
      = Cert.ReferenceIdeal.Read.val_main_v13 (F := Ideal) (m ((c.tc : Thread nD τ).loc main_arg1)) (m ((c.tc : Thread nD τ).loc main_arg2)) := by
  show StableHlo.after hostOps0 (fun b => m (c, b)) (Proc.devRef .tc main_v11) = _
  after_results
  rfl

/-- The program's result after the tail, over the region's final arrays. -/
theorem tail_eq (c : Dev nD) :
    Pipeline.afterTail₀ cfgs (dats m) 0 (V0 m) [hostOps1] c main_v16
      = moleculeSums (m ((c.tc : Thread nD τ).loc main_arg3))
          (shapeCast S200000 (energyColumn (V m c main_arg0) (V m c main_v11)) shapeCasts_S200000x1_S200000) := by
  unfold Pipeline.afterTail₀
  show StableHlo.after hostOps1 _ (Proc.devRef .tc main_v16) = _
  after_results
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  have h12 : Pipeline.withArrays (cfgs 0).spec c (V0 m c) (fun w => (dats m 0 c).arrAt w (cfgs 0).N) (Proc.devRef .tc main_v12)
      = energyColumn (V m c main_arg0) (V m c main_v11) :=
    (Pipeline.withArrays_arr spec0 launch0.win.arr_inj c _ _ 2).trans (column_final m c)
  rw [h3, h12]
  rfl

/-- THE KERNEL PROGRAM'S RUN, READ: every weakly fair execution terminates with the result at the molecule sums of the
    flattened energy column of the distances and the charge products, and the arguments unchanged. -/
theorem kernel_run : θ_run defs (onTc (τ := τ) (main (F := Ideal))) ⟨m, fun _ => 0, ρ⟩ (fun r => ∀ c : Dev nD,
      r.2.mem ((c.tc : Thread nD τ).loc main_v16)
        = moleculeSums (m ((c.tc : Thread nD τ).loc main_arg3))
            (shapeCast S200000 (energyColumn (m ((c.tc : Thread nD τ).loc main_arg0))
              (Cert.ReferenceIdeal.Read.val_main_v13 (F := Ideal) (m ((c.tc : Thread nD τ).loc main_arg1)) (m ((c.tc : Thread nD τ).loc main_arg2))))
              shapeCasts_S200000x1_S200000)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v16 (Pipeline.mem_restRefs_of main_v16 (by decide) (by decide))).trans
        ((tail_eq m c).trans (by rw [V_main_arg0 m c, charge_entry m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Coulomb

end
-- ==== Proof.CoulombHost.lean ====
/-
  The reference's host stages that both programs share, read at an index.

  The charge product `Q (i, j) = q i · q_pad (n (i, j))` gathers from the charge vector with one zero appended; the start
  index is the neighbour word `n`, shifted by 200001 where negative, read signed and clamped into `[0, 200000]`. Two facts
  about it carry the proof. Every entry of `Q` is a real number when every charge is, because the table's entries are the
  charges and one zero. And on PADDING — a neighbour word not below 200000 — the clamped index is exactly 200000, the
  appended zero, so `Q` is zero there: this is why dropping the mask, as one side does, changes nothing.
  The mask bit itself, and the envelope stage, are read off the generated stages one operation at a time.
-/
import proofs.«110693_j54597624267346_2_alg».proof.Proof.Gen.ReferenceIdeal.Read
import proofs.«110693_j54597624267346_2_alg».proof.Proof.CoulombAlgebra
import Idealize.ShloMosaic.Lib.ValueIdx
import Idealize.ShloMosaic.Lib.Pipeline.Value

noncomputable section

open scoped BigOperators
open Idealize.ShloMosaic Idealize.ShloMosaic.ValueIdx

namespace Cert.Coulomb

open Cert.ReferenceIdeal Cert.ReferenceIdeal.Gen Cert.ReferenceIdeal.Read

/-! ## Signed order on a neighbour word -/

/-- A word not below 200000 (signed) is not negative, and its value as a natural number is at least 200000. -/
theorem pad_word (w : BitVec 32) (h : ¬ IntOp.cmpi .slt w 200000#32 = 1#1) :
    IntOp.cmpi .slt w 0#32 = 0#1 ∧ 200000 ≤ w.toInt.toNat := by
  have hc : (200000#32 : BitVec 32).toInt = 200000 := by decide
  have h0 : (0#32 : BitVec 32).toInt = 0 := by decide
  have h1 : ¬ w.toInt < 200000 := fun hlt => h (by
    show BitVec.ofBool (w.slt 200000#32) = 1#1
    rw [BitVec.slt_eq_decide, hc, decide_eq_true hlt]; rfl)
  refine ⟨?_, by omega⟩
  show BitVec.ofBool (w.slt 0#32) = 0#1
  rw [BitVec.slt_eq_decide, h0, decide_eq_false (by omega)]; rfl

/-- A word cannot be both below 200000 and at least 200000 (signed). -/
theorem not_lt_and_ge (w : BitVec 32) (h1 : IntOp.cmpi .slt w 200000#32 = 1#1) (h2 : IntOp.cmpi .sge w 200000#32 = 1#1) :
    False := by
  have e1 : BitVec.ofBool (w.slt 200000#32) = 1#1 := h1
  have e2 : BitVec.ofBool ((200000#32 : BitVec 32).sle w) = 1#1 := h2
  rw [BitVec.slt_eq_decide] at e1
  rw [BitVec.sle_eq_decide] at e2
  by_cases hlt : w.toInt < (200000#32 : BitVec 32).toInt
  · rw [decide_eq_false (by omega)] at e2; exact absurd e2 (by decide)
  · rw [decide_eq_false hlt] at e1; exact absurd e1 (by decide)

/-! ## The gather's start index and the padded table -/

/-- The start index of the gather at `(i, j)`: the neighbour word, shifted by 200001 where negative. -/
theorem start_eq (x2 : (⟨S200000x128, .i32⟩ : BufTy).Contents (Elt Ideal)) (y : S200000x128.Idx) :
    val_main_v10 (F := Ideal) x2 (takeIdx y)
      = Scalar.select (IntOp.cmpi .slt (x2 y) 0#32) (IntOp.addi (x2 y) 200001#32) (x2 y) := by
  have hy : idx_main_v10 (takeIdx y) = y :=
    funext fun a => Fin.ext (by match a with | ⟨0, _⟩ => rfl | ⟨1, _⟩ => rfl)
  rw [val_main_v10_apply, hy, val_main_v9_apply, val_main_v6_apply, val_main_v5_apply, val_main_c_0_apply,
    val_main_v8_apply, val_main_v7_apply, val_main_c_1_apply]

/-- The gathered charge at `(i, j)` is the padded table at the start index read signed and clamped into `[0, 200000]`. -/
theorem gathered_eq (x1 : (⟨S200000, .f32⟩ : BufTy).Contents (Elt Ideal)) (x2 : (⟨S200000x128, .i32⟩ : BufTy).Contents (Elt Ideal))
    (y : S200000x128.Idx) :
    val_main_v11 (F := Ideal) x1 x2 y
      = val_main_v3 (F := Ideal) x1 (ix1 ⟨min (val_main_v10 (F := Ideal) x2 (takeIdx y)).toInt.toNat (200001 - 1), by omega⟩) := by
  unfold val_main_v11
  exact gather_take_apply (N := 200001) (R := 200000) (C := 128) (by norm_num) _ _ _ y

/-- The padded table's last entry, at 200000, is the appended zero. -/
theorem table_pad (x1 : (⟨S200000, .f32⟩ : BufTy).Contents (Elt Ideal)) :
    val_main_v3 (F := Ideal) x1 (ix1 (⟨200000, by norm_num⟩ : Fin 200001)) = 0 := by
  unfold val_main_v3
  refine (concatenate_pair_apply_right (0 : Fin 1) x1 (val_main_v2 (F := Ideal)) _
    (ix1 (⟨200000, by norm_num⟩ : Fin 200001)) rfl rfl (ix1 (0 : Fin 1)) ?_ ?_).trans ?_
  · intro b hb; exact absurd (Subsingleton.elim _ _) hb
  · rfl
  · rw [val_main_v2_apply, val_main_cst_apply]; exact Ideal.ofBits_zero_f32

/-- Every entry of the padded table is a real number when every charge is. -/
theorem table_real (x1 : (⟨S200000, .f32⟩ : BufTy).Contents (Elt Ideal)) (hx : ∀ i, ∃ r : ℝ, x1 i = (r : EReal))
    (k : Fin 200001) : ∃ r : ℝ, val_main_v3 (F := Ideal) x1 (ix1 k) = (r : EReal) := by
  by_cases hk : k.val < 200000
  · obtain ⟨r, hr⟩ := hx (ix1 (⟨k.val, hk⟩ : Fin 200000))
    refine ⟨r, ?_⟩
    unfold val_main_v3
    refine (concatenate_pair_apply_left (0 : Fin 1) x1 (val_main_v2 (F := Ideal)) _
      (ix1 k) rfl (ix1 (⟨k.val, hk⟩ : Fin 200000)) ?_).trans hr
    intro b; match b with | ⟨0, _⟩ => rfl
  · obtain rfl : k = ⟨200000, by norm_num⟩ := Fin.ext (by show k.val = 200000; have := k.isLt; omega)
    exact ⟨0, (table_pad x1).trans EReal.coe_zero.symm⟩

/-! ## The charge product -/

/-- Every charge product is a real number when every charge is. -/
theorem chargeProduct_real (x1 : (⟨S200000, .f32⟩ : BufTy).Contents (Elt Ideal)) (x2 : (⟨S200000x128, .i32⟩ : BufTy).Contents (Elt Ideal))
    (hx : ∀ i, ∃ r : ℝ, x1 i = (r : EReal)) (y : S200000x128.Idx) :
    ∃ r : ℝ, val_main_v13 (F := Ideal) x1 x2 y = (r : EReal) := by
  rw [val_main_v13_apply, val_main_v12_apply, val_main_v4_apply, gathered_eq]
  obtain ⟨a, ha⟩ := hx (idx_main_v4 (idx_main_v12 y))
  obtain ⟨b, hb⟩ := table_real x1 hx ⟨min (val_main_v10 (F := Ideal) x2 (takeIdx y)).toInt.toNat (200001 - 1), by omega⟩
  rw [ha, hb]
  exact ⟨a * b, (EReal.coe_mul a b).symm⟩

/-- On padding — a neighbour word not below 200000 — the charge product is zero: the clamped start index is the
    appended zero's. -/
theorem chargeProduct_pad (x1 : (⟨S200000, .f32⟩ : BufTy).Contents (Elt Ideal)) (x2 : (⟨S200000x128, .i32⟩ : BufTy).Contents (Elt Ideal))
    (y : S200000x128.Idx) (h : ¬ IntOp.cmpi .slt (x2 y) 200000#32 = 1#1) :
    val_main_v13 (F := Ideal) x1 x2 y = 0 := by
  obtain ⟨h0, hge⟩ := pad_word (x2 y) h
  have hidx : (⟨min (val_main_v10 (F := Ideal) x2 (takeIdx y)).toInt.toNat (200001 - 1), by omega⟩ : Fin 200001)
      = ⟨200000, by norm_num⟩ := by
    refine Fin.ext ?_
    show min (val_main_v10 (F := Ideal) x2 (takeIdx y)).toInt.toNat (200001 - 1) = 200000
    rw [start_eq, h0, select_zero]
    omega
  rw [val_main_v13_apply, gathered_eq, hidx, table_pad]
  exact mul_zero _

/-- The mask bit at `(i, j)`: "the neighbour word is below 200000". -/
theorem mask_eq (x2 : (⟨S200000x128, .i32⟩ : BufTy).Contents (Elt Ideal)) (y : S200000x128.Idx) :
    val_main_v1 (F := Ideal) x2 y = IntOp.cmpi .slt (x2 y) 200000#32 := by
  rw [val_main_v1_apply, val_main_v0_apply, val_main_c_apply]

/-! ## The masked reciprocal and the envelope -/

/-- The masked reciprocal at `(i, j)`: `1 / d` under the mask bit, else `0`. -/
theorem maskedRecip_eq (x0 : (⟨S200000x128, .f32⟩ : BufTy).Contents (Elt Ideal)) (x2 : (⟨S200000x128, .i32⟩ : BufTy).Contents (Elt Ideal))
    (y : S200000x128.Idx) :
    val_main_v16 (F := Ideal) x0 x2 y
      = Scalar.select (IntOp.cmpi .slt (x2 y) 200000#32) (Ideal.div 1 (x0 y)) 0 := by
  rw [val_main_v16_apply, mask_eq, val_main_v15_apply, val_main_v14_apply, val_main_cst_2_apply,
    val_main_call0_v1_apply, val_main_call0_v0_apply, val_main_cst_3_apply]
  show Scalar.select _ (Ideal.div (Ideal.ofBits .f32 0x3F800000#32) (x0 y)) (Ideal.ofBits .f32 0x00000000#32) = _
  rw [one_f32, Ideal.ofBits_zero_f32]

/-- The envelope stage at `(i, j)` is the envelope of the distance there. -/
theorem envelope_eq (x0 : (⟨S200000x128, .f32⟩ : BufTy).Contents (Elt Ideal)) (y : S200000x128.Idx) :
    val_main_v32 (F := Ideal) x0 y = envelope (x0 y) := by
  simp only [val_main_v32_apply, val_main_v23_apply, val_main_v22_apply, val_main_cst_8_apply, val_main_v31_apply,
    val_main_v30_apply, val_main_v29_apply, val_main_cst_11_apply, val_main_v28_apply, val_main_v27_apply,
    val_main_cst_10_apply, val_main_v26_apply, val_main_v25_apply, val_main_cst_9_apply, val_main_v24_apply,
    val_main_v21_apply, val_main_call1_v4_apply, val_main_call1_v3_apply, val_main_cst_7_apply, val_main_call1_v2_apply,
    val_main_call1_v1_apply, val_main_call1_v0_apply, val_main_cst_6_apply, val_main_v20_apply, val_main_v19_apply,
    val_main_cst_5_apply, val_main_call2_v1_apply, val_main_call2_v0_apply, val_main_cst_12_apply]
  rfl

end Cert.Coulomb

end
-- ==== Proof.LibColumnFlatten.lean ====
/-
  A column `[a, 1]` flattened to a vector `[a]`, read at an index given by its coordinate: the cast keeps the row-major
  position, and the unit axis contributes nothing to it, so entry `i` of the vector is entry `(i, 0)` of the column.
  (The reshape a `keepdims` reduction's result goes through when its kept axis is dropped again.)
-/
import Idealize.ShloMosaic.Lib.Pipeline.Value
import Idealize.ShloMosaic.Lib.ValueIdx

namespace Cert.LayoutFlatten

open Idealize.ShloMosaic Idealize.ShloMosaic.ValueIdx

variable {α : Type}

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    omega)

end Cert.LayoutFlatten
-- ==== Proof.CoulombBridge.lean ====
/-
  The reference's per-atom energies are the flattened energy column.

  Atom `r`'s entry of the reference is the factor times `(0 + ∑ Q · masked 1/d) − (0 + ∑ envelope · (Q · masked 1/d))`
  over the atom's 128 slots; the flattened energy column's entry is the factor times `∑ (guarded Q / d) · (1 − envelope)`.
  The row law joins them, from three facts about the arguments: distances and charges are real numbers, a real
  neighbour's distance is nonzero, and on padding the charge product is zero.
-/
import proofs.«110693_j54597624267346_2_alg».proof.Proof.CoulombHost
import proofs.«110693_j54597624267346_2_alg».proof.Proof.LibColumnFlatten

noncomputable section

open scoped BigOperators
open Idealize.ShloMosaic Idealize.ShloMosaic.ValueIdx

namespace Cert.Coulomb

open Cert.ReferenceIdeal Cert.ReferenceIdeal.Gen Cert.ReferenceIdeal.Read

/-- Atom `r`'s entry of the reference, one operation at a time. -/
theorem reference_row (x0 : (⟨S200000x128, .f32⟩ : BufTy).Contents (Elt Ideal)) (x1 : (⟨S200000, .f32⟩ : BufTy).Contents (Elt Ideal))
    (x2 : (⟨S200000x128, .i32⟩ : BufTy).Contents (Elt Ideal)) (r : Fin 200000) :
    val_main_v37 (F := Ideal) x0 x1 x2 (ix1 r)
      = Ideal.ofBits .f32 0x40E664F3#32
          * ((0 + ∑ k : Fin 128, val_main_v13 (F := Ideal) x1 x2 (ix2 r k)
                * Scalar.select (IntOp.cmpi .slt (x2 (ix2 r k)) 200000#32) (Ideal.div 1 (x0 (ix2 r k))) 0)
            - (0 + ∑ k : Fin 128, envelope (x0 (ix2 r k)) * (val_main_v13 (F := Ideal) x1 x2 (ix2 r k)
                * Scalar.select (IntOp.cmpi .slt (x2 (ix2 r k)) 200000#32) (Ideal.div 1 (x0 (ix2 r k))) 0))) := by
  have hi18 : ∀ k : Fin 128, idx_main_v18 (ix1 r) k = ix2 r k := fun k =>
    funext fun a => Fin.ext (by match a with | ⟨0, _⟩ => rfl | ⟨1, _⟩ => rfl)
  have hi34 : ∀ k : Fin 128, idx_main_v34 (ix1 r) k = ix2 r k := fun k =>
    funext fun a => Fin.ext (by match a with | ⟨0, _⟩ => rfl | ⟨1, _⟩ => rfl)
  rw [val_main_v37_apply, val_main_v36_apply, val_main_cst_14_apply, val_main_v35_apply, val_main_v18_apply,
    val_main_v34_apply, val_main_cst_4_apply, val_main_cst_13_apply]
  simp only [hi18, hi34, val_main_v33_apply, val_main_v17_apply, maskedRecip_eq, envelope_eq, Ideal.mulf_def,
    Ideal.subf_def, Ideal.ofBits_def, Ideal.ofBits_zero_f32]

/-- THE BRIDGE: under the decoded precondition, the flattened energy column of the distances and the reference's own
    charge products is the reference's per-atom energy vector. -/
theorem rows_agree (x0 : (⟨S200000x128, .f32⟩ : BufTy).Contents (Elt Ideal)) (x1 : (⟨S200000, .f32⟩ : BufTy).Contents (Elt Ideal))
    (x2 : (⟨S200000x128, .i32⟩ : BufTy).Contents (Elt Ideal))
    (hcast : (⟨2, ![200000, 1]⟩ : Shape).ShapeCasts ⟨1, ![200000]⟩)
    (h0 : ∀ i, ∃ r : ℝ, x0 i = (r : EReal)) (h1 : ∀ i, ∃ r : ℝ, x1 i = (r : EReal))
    (h2 : ∀ i, x0 i ≠ 0 ∨ IntOp.cmpi .sge (x2 i) 200000#32 = 1#1) :
    shapeCast ⟨1, ![200000]⟩ (energyColumn x0 (val_main_v13 (F := Ideal) x1 x2)) hcast = val_main_v37 (F := Ideal) x0 x1 x2 := by
  funext i
  obtain ⟨r, rfl⟩ : ∃ r : Fin 200000, i = ix1 r := ⟨i 0, eq_ix1 i⟩
  rw [Cert.LayoutFlatten.shapeCast_a1_a_apply, reference_row]
  show rowEnergy x0 (val_main_v13 (F := Ideal) x1 x2) r = _
  unfold rowEnergy slotTerm
  simp only [one_f32, Ideal.ofBits_zero_f32]
  refine row_eq _ (fun k => val_main_v13 (F := Ideal) x1 x2 (ix2 r k)) (fun k => x0 (ix2 r k))
    (fun k => envelope (x0 (ix2 r k))) (fun k => IntOp.cmpi .slt (x2 (ix2 r k)) 200000#32)
    (fun k => chargeProduct_real x1 x2 h1 _) (fun k => h0 _) (fun k => envelope_is_real _) (fun k hv => ?_)
    (fun k hv => chargeProduct_pad x1 x2 _ hv)
  rcases h2 (ix2 r k) with hne | hge
  · exact hne
  · exact (not_lt_and_ge _ hv hge).elim

end Cert.Coulomb

end
-- ==== Proof.CoulombPre.lean ====
/-
  The precondition, decoded. It is one bit: "every distance is finite, every charge is finite, and at every slot the
  distance is nonzero or the neighbour word is at least 200000". As a conjunction of three all-reductions it says, entry
  by entry: each distance and each charge is a real number (its absolute value is below `+∞`), and each slot has a
  nonzero distance unless it is padding.
-/
import proofs.«110693_j54597624267346_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Coulomb

open Cert.Pre_finite_inputs Cert.Pre_finite_inputs.Gen

instance scalarIdx_subsingleton : Subsingleton (⟨0, ![]⟩ : Shape).Idx := ⟨fun a b => funext fun d => d.elim0⟩

/-- The f32 word `0x7F800000` denotes `+∞`. -/
theorem inf_f32 : Ideal.ofBits .f32 0x7F800000#32 = ⊤ := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  induction x using EReal.rec with
  | bot => simp at hlt
  | top => simp at hlt
  | coe r => exact ⟨r, rfl⟩

/-- A scalar broadcast to any shape reads the scalar at every index. -/
theorem splat_apply {s : Shape} {α : Type} (hb : (⟨0, ![]⟩ : Shape).BroadcastsInDim s (![] : Fin 0 → Fin s.rank))
    (y : (⟨0, ![]⟩ : Shape).Idx → α) (i : s.Idx) : broadcastInDim s ![] hb y i = y ix0 :=
  broadcastInDim_apply _ hb y i ix0 (fun a => a.elim0)

/-- THE PRECONDITION, ENTRY BY ENTRY. -/
theorem pre_decode (x0 : FVec Ideal S200000x128 .f32) (x1 : FVec Ideal S200000 .f32) (x2 : IVec S200000x128 32)
    (x3 : IVec S200000 32) (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, x0 i ≠ 0 ∨ IntOp.cmpi .sge (x2 i) 200000#32 = 1#1) := by
  have e := congrFun h ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun i => ?_⟩
  · have hi := Host.reduce_andi_all _ _ _ _ _ e1 i
    have hi' : Ideal.cmp .olt (max (x0 i) (-(x0 i)))
        (broadcastInDim S200000x128 ![] Facts.bcast_S_S200000x128 (constant (F := Ideal) S_ .f32 0x7F800000#32) i) = 1#1 := hi
    rw [splat_apply] at hi'
    have hc : constant (F := Ideal) S_ .f32 0x7F800000#32 ix0 = ⊤ := inf_f32
    rw [hc] at hi'
    exact real_of_abs_lt_top _ hi'
  · have hi := Host.reduce_andi_all _ _ _ _ _ e2 i
    have hi' : Ideal.cmp .olt (max (x1 i) (-(x1 i)))
        (broadcastInDim S200000 ![] Facts.bcast_S_S200000 (constant (F := Ideal) S_ .f32 0x7F800000#32) i) = 1#1 := hi
    rw [splat_apply] at hi'
    have hc : constant (F := Ideal) S_ .f32 0x7F800000#32 ix0 = ⊤ := inf_f32
    rw [hc] at hi'
    exact real_of_abs_lt_top _ hi'
  · have hi := Host.reduce_andi_all _ _ _ _ _ e3 i
    have hi' : IntOp.ori
        (Ideal.cmp .une (x0 i) (broadcastInDim S200000x128 ![] Facts.bcast_S_S200000x128 (constant (F := Ideal) S_ .f32 0x00000000#32) i))
        (IntOp.cmpi .sge (x2 i) (broadcastInDim S200000x128 ![] Facts.bcast_S_S200000x128 (constantI S_ 32 200000#32) i)) = 1#1 := hi
    rw [splat_apply, splat_apply] at hi'
    have hz : constant (F := Ideal) S_ .f32 0x00000000#32 ix0 = 0 := Ideal.ofBits_zero_f32
    have hn : constantI S_ 32 200000#32 ix0 = 200000#32 := rfl
    rw [hz, hn] at hi'
    rcases IntOp.ori_eq_one.1 hi' with hl | hr
    · left
      intro h0
      simp [Ideal.cmp, h0] at hl
    · exact Or.inr hr

end Cert.Coulomb

end
-- ==== Proof.lean ====
/-
  A long-range Coulomb energy per molecule, and why dropping the neighbour mask changes nothing.

  For 200000 atoms with 128 neighbour slots each, both programs form the charge product `Q (i, j) = q i · q_pad (n (i, j))`
  by gathering from the charge vector with one zero appended (slot words `n ≥ 200000` are padding and clamp onto that zero),
  weight each slot by `1 − envelope (d)` of its distance `d`, sum over the slots, scale, and scatter-add the per-atom
  energies into 64 molecule sums.

  They differ in two places. One side masks `1 / d` by "the slot is a real neighbour" and subtracts the envelope-weighted
  sum from the plain sum; the other takes `Q / d` wherever `Q ≠ 0` with no mask, and sums `(Q / d) · (1 − envelope)` once.
  On the extended reals these agree when every distance and charge is a real number and a real neighbour's distance is
  nonzero: padding has `Q = 0` by the appended zero, so the mask is implied; each slot's term is then one real number on
  both sides; and `∑ a (1 − f) = ∑ a − ∑ f a` for finite real sums. A zero distance on a real neighbour is excluded because
  there the masked reciprocal is infinite and the difference of the two sums is `∞ − ∞`.

  The grid has 25 points of 8000 atoms; each writes its own rows of the energy column from the same rows of the inputs,
  so the column after the region is one function of the whole arrays, and the tail after it is the same on both sides.
-/
import proofs.«110693_j54597624267346_2_alg».proof.Defs
import proofs.«110693_j54597624267346_2_alg».proof.Proof.Gen.Kernel
import proofs.«110693_j54597624267346_2_alg».proof.Proof.Gen.Kernel.Skeleton
import proofs.«110693_j54597624267346_2_alg».proof.Proof.Gen.Kernel.Launch
import proofs.«110693_j54597624267346_2_alg».proof.Proof.Gen.Kernel.Points
import proofs.«110693_j54597624267346_2_alg».proof.Proof.Gen.Kernel.Frame
import proofs.«110693_j54597624267346_2_alg».proof.Proof.Gen.KernelIdeal
import proofs.«110693_j54597624267346_2_alg».proof.Proof.Gen.KernelIdeal.Skeleton
import proofs.«110693_j54597624267346_2_alg».proof.Proof.Gen.KernelIdeal.Launch
import proofs.«110693_j54597624267346_2_alg».proof.Proof.Gen.KernelIdeal.Points
import proofs.«110693_j54597624267346_2_alg».proof.Proof.Gen.KernelIdeal.Frame
import proofs.«110693_j54597624267346_2_alg».proof.Proof.Gen.ReferenceIdeal
import proofs.«110693_j54597624267346_2_alg».proof.Proof.Gen.Pre_finite_inputs
import proofs.«110693_j54597624267346_2_alg».proof.Proof.Gen.ReferenceIdeal.Run
import proofs.«110693_j54597624267346_2_alg».proof.Proof.Gen.ReferenceIdeal.Read
import proofs.«110693_j54597624267346_2_alg».proof.Proof.CoulombRun
import proofs.«110693_j54597624267346_2_alg».proof.Proof.CoulombBridge
import proofs.«110693_j54597624267346_2_alg».proof.Proof.CoulombPre
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the molecule sums of one per-atom energy vector: the flattened energy column on one side, the
    masked two-sum form on the other, equal row by row under the decoded precondition. -/
theorem algebraic : Cert.algebraic_KernelIdeal_ReferenceIdeal := by
  intro m ρ m' ρ' hpre hagree
  refine ⟨_, Cert.Coulomb.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Coulomb.pre_decode _ _ _ _ (hpre c)
  rw [Cert.ReferenceIdeal.Read.val_main_v40_eq, (hagree c).1, (hagree c).2.1, (hagree c).2.2.1, (hagree c).2.2.2,
    Cert.Coulomb.rows_agree _ _ _ _ h0 h1 h2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
